-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x64 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S128x128 .f32) (main_arg9 : FVec F S128 .f32) (main_arg10 : FVec F S128x64 .f32) (main_arg11 : FVec F S64 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : IVec S2x800000 32) (main_arg2 : FVec F S800000x64 .f32) (main_arg3 : FVec F S64x64 .f32) (main_arg4 : FVec F S192x128 .f32) (main_arg5 : FVec F S128 .f32) (main_arg6 : FVec F S128x64 .f32) (main_arg7 : FVec F S64 .f32) (main_arg8 : FVec F S128x128 .f32) (main_arg9 : FVec F S128 .f32) (main_arg10 : FVec F S128x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S192x128 .f32 := Host.absf main_arg4
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S4000x64 : Shape := ⟨2, ![4000, 64]⟩
abbrev S4000x192 : Shape := ⟨2, ![4000, 192]⟩
abbrev S4000x128 : Shape := ⟨2, ![4000, 128]⟩
abbrev S1x128 : Shape := ⟨2, ![1, 128]⟩
abbrev S1x64 : Shape := ⟨2, ![1, 64]⟩
abbrev S50000 : Shape := ⟨1, ![50000]⟩
abbrev S50000x1 : Shape := ⟨2, ![50000, 1]⟩
abbrev S5000x64 : Shape := ⟨2, ![5000, 64]⟩
abbrev S5000x128 : Shape := ⟨2, ![5000, 128]⟩

abbrev nBuf : Space → Nat
  | .hbm => 52
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x64, .f32⟩
  | .hbm, ⟨50, _⟩ => ⟨S50000x64, .f32⟩
  | .hbm, ⟨51, _⟩ => ⟨S50000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S192x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S4000x64, .f32⟩
  | .local _ .vmem, ⟨12, _⟩ => ⟨S4000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S128x128, .f32⟩
  | .local _ .vmem, ⟨18, _⟩ => ⟨S128, .f32⟩
  | .local _ .vmem, ⟨19, _⟩ => ⟨S128x64, .f32⟩
  | .local _ .vmem, ⟨20, _⟩ => ⟨S64, .f32⟩
  | .local _ .vmem, ⟨21, _⟩ => ⟨S5000x64, .f32⟩
  | .local _ .vmem, ⟨22, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S128_S128_0 : ∀ a, (![0] : Fin 1 → Nat) a + S128.size a ≤ S128.size a
  h_S128 : 0 < S128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  concatenates_S4000x64_S4000x64_S4000x64_S4000x192_d1 : Shape.Concatenates [S4000x64, S4000x64, S4000x64] S4000x192 1
  shapeCasts_S128_S1x128 : S128.ShapeCasts S1x128
  broadcasts_S1x128_S4000x128 : S1x128.Broadcasts S4000x128
  shapeCasts_S64_S1x64 : S64.ShapeCasts S1x64
  broadcasts_S1x64_S4000x64 : S1x64.Broadcasts S4000x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S128x128_S128x128_0_0 : ∀ a, (![0, 0] : Fin 2 → Nat) a + S128x128.size a ≤ S128x128.size a
  h_S128x128 : 0 < S128x128.numel
  concatenates_S5000x64_S5000x64_S5000x128_d1 : Shape.Concatenates [S5000x64, S5000x64] S5000x128 1
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  dot_S4000x192_S192x128_S4000x128_1_0_0_1_n_n_wf : DotDims.WF S4000x192 S192x128 S4000x128 [1] [0] [0] [1] [] []
  dot_S4000x128_S128x64_S4000x64_1_0_0_1_n_n_wf : DotDims.WF S4000x128 S128x64 S4000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S800000x64.size a
  hwx0_2 : ∀ i : grid0.Coords, EltTy.bits .f32 = 32 ∨ (Rect.block (s := S800000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x128.size a ≤ S192x128.size a
  hwx0_4 : ∀ i : grid0.Coords, EltTy.bits .f32 = 32 ∨ (Rect.block (s := S192x128) S192x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S800000x64.size a
  hwx0_8 : ∀ i : grid0.Coords, EltTy.bits .f32 = 32 ∨ (Rect.block (s := S800000x64) S4000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x192_S192x128_S4000x128_1_0_0_1_n_n : DotDims S4000x192 S192x128 S4000x128 where
  lhsContracting := [1]
  rhsContracting := [0]
  lhsNonContracting := [0]
  rhsNonContracting := [1]
  lhsBatch := []
  rhsBatch := []
  wf := dot_S4000x192_S192x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S192x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000 : Shape := ⟨1, ![50000]⟩
abbrev S50000x1 : Shape := ⟨2, ![50000, 1]⟩
abbrev S50000x128 : Shape := ⟨2, ![50000, 128]⟩

abbrev nBuf : Space → Nat
  | .hbm => 78
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x64, .f32⟩
  | .hbm, ⟨35, _⟩ => ⟨S800000x64, .f32⟩
  | .hbm, ⟨36, _⟩ => ⟨S800000x192, .f32⟩
  | .hbm, ⟨37, _⟩ => ⟨S800000x128, .f32⟩
  | .hbm, ⟨38, _⟩ => ⟨S1x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S800000x64, .f32⟩
  | .hbm, ⟨45, _⟩ => ⟨S800000x64, .f32⟩
  | .hbm, ⟨46, _⟩ => ⟨S1x64, .f32⟩
  | .hbm, ⟨47, _⟩ => ⟨S800000x64, .f32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  dot_S800000x192_S192x128_S800000x128_1_0_0_1_n_n_wf : DotDims.WF S800000x192 S192x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with its two results named.

  @main is four segments: the host operations that gather the source and destination rows, the edge region, the host
  operations that average the new edge rows over each node's incoming edges, and the node region. Running them in order
  leaves every buffer that outlives a region at a known content: the fold `W4` of the four segments over the launch
  memory. This module reads that fold at the two result buffers — the new edge array is what the edge region's
  write-backs leave (no later segment writes it), the new node array what the node region's leave — and at each
  region's operands as the region finds them.
-/
import proofs.«106935_j60120952209605_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the arguments as launched. -/
theorem run_results : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.KernelBoundary.lean ====
/-
  The contents each region is entered with and left at, read through the fold of @main's segments.

  * The new edge array is the edge region's output array after its last write-back: the averaging operations and the
    node region that follow do not write it.
  * The new node array is the node region's output array after its last write-back.
  * The edge region finds, in its first two operands, the node features gathered at each edge's source and at its
    destination — the very gathers the reference computes —, and in the others the arguments as launched.
  * The node region finds the node features and the node weights as launched, and as its second operand the new edge
    rows summed over each node's incoming edges and divided by their count floored at one: the averaging tail, one
    function of the destination indices and of the edge region's result, and the same function the reference applies.
-/
import proofs.«106935_j60120952209605_1_alg».proof.Proof.Gen.KernelIdeal.Frame
import proofs.«106935_j60120952209605_1_alg».proof.Proof.Gen.ReferenceIdeal.Read
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The averaging tail -/

/-- The mean of the rows of `en` over each node's incoming edges (`dst` names each edge's node): the rows added into a
    zero array at their nodes, divided by the number of rows each node received, floored at one. -/
def nodeMean (dst : (⟨S800000, .i32⟩ : BufTy).Contents (Elt F)) (en : (⟨S800000x64, .f32⟩ : BufTy).Contents (Elt F)) :
    (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst) en)
    (broadcastInDim S50000x64 ![0, 1] bcast_S50000x1_S50000x64_0_1 (broadcastInDim S50000x1 ![0] bcast_S50000_S50000x1_0
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 dst)
          (broadcastInDim S800000 ![] bcast_S_S800000 (constant S_ .f32 0x3F800000#32)))
        (broadcastInDim S50000 ![] bcast_S_S50000 (constant S_ .f32 0x3F800000#32)))))

/-- The reference's averaged messages are the same tail of its destination indices and of its new edge array. -/
theorem ref_nodeMean (x0 : (⟨S50000x64, .f32⟩ : BufTy).Contents (Elt F)) (x1 : (⟨S2x800000, .i32⟩ : BufTy).Contents (Elt F))
    (x2 : (⟨S800000x64, .f32⟩ : BufTy).Contents (Elt F)) (x3 : (⟨S64x64, .f32⟩ : BufTy).Contents (Elt F))
    (x4 : (⟨S192x128, .f32⟩ : BufTy).Contents (Elt F)) (x5 : (⟨S128, .f32⟩ : BufTy).Contents (Elt F))
    (x6 : (⟨S128x64, .f32⟩ : BufTy).Contents (Elt F)) (x7 : (⟨S64, .f32⟩ : BufTy).Contents (Elt F)) :
    Cert.ReferenceIdeal.Read.val_main_v42 (F := F) x0 x1 x2 x3 x4 x5 x6 x7
      = nodeMean (Cert.ReferenceIdeal.Read.val_main_v3 (F := F) x1) (Cert.ReferenceIdeal.Read.val_main_v30 (F := F) x0 x1 x2 x3 x4 x5 x6 x7) := by
  unfold Cert.ReferenceIdeal.Read.val_main_v42 Cert.ReferenceIdeal.Read.val_main_v33 Cert.ReferenceIdeal.Read.val_main_v41
    Cert.ReferenceIdeal.Read.val_main_v40 Cert.ReferenceIdeal.Read.val_main_v39 Cert.ReferenceIdeal.Read.val_main_v38
    Cert.ReferenceIdeal.Read.val_main_v37 Cert.ReferenceIdeal.Read.val_main_v36 Cert.ReferenceIdeal.Read.val_main_v35
    Cert.ReferenceIdeal.Read.val_main_v34 Cert.ReferenceIdeal.Read.val_main_v32 Cert.ReferenceIdeal.Read.val_main_v31
    Cert.ReferenceIdeal.Read.val_main_cst Cert.ReferenceIdeal.Read.val_main_cst_3 Cert.ReferenceIdeal.Read.val_main_cst_4
    Cert.ReferenceIdeal.Read.val_main_cst_5 nodeMean
  rfl

/-! ## The two results -/

/-- The new edge array is what the edge region's write-backs leave. -/
theorem edges_result (c : Dev nD) : W4 m ρ c (Proc.devRef .tc main_v18) = (dat0 (V1 m ρ) c).arrAt 8 cfg0.N :=
  calc W4 m ρ c (Proc.devRef .tc main_v18)
    _ = W3 m ρ c (Proc.devRef .tc main_v18) := W4_of_ne m ρ c main_v18 (by decide)
    _ = W2 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 8 cfg0.N := W2_arr m ρ c 8

/-- The new node array is what the node region's write-backs leave. -/
theorem nodes_result (c : Dev nD) : W4 m ρ c (Proc.devRef .tc main_v31) = (dat1 (V3 m ρ) c).arrAt 6 cfg1.N :=
  W4_arr m ρ c 6

/-! ## What the edge region finds -/

theorem edge_src (c : Dev nD) :
    V1 m ρ c main_v10 = Cert.ReferenceIdeal.Read.val_main_v10 (F := F) (m ((c.tc : Thread nD τ).loc main_arg0)) (m ((c.tc : Thread nD τ).loc main_arg1)) := by
  show StableHlo.after hostOps0 (W0 m ρ c) (Proc.devRef .tc main_v10) = _
  after_results
  rfl

theorem edge_dst (c : Dev nD) :
    V1 m ρ c main_v17 = Cert.ReferenceIdeal.Read.val_main_v17 (F := F) (m ((c.tc : Thread nD τ).loc main_arg0)) (m ((c.tc : Thread nD τ).loc main_arg1)) := by
  show StableHlo.after hostOps0 (W0 m ρ c) (Proc.devRef .tc main_v17) = _
  after_results_simp <;> rfl

theorem edge_arg2 (c : Dev nD) : V1 m ρ c main_arg2 = (m ((c.tc : Thread nD τ).loc main_arg2)) := by
  show StableHlo.after hostOps0 (W0 m ρ c) (Proc.devRef .tc main_arg2) = _
  after_results_simp <;> rfl
theorem edge_arg3 (c : Dev nD) : V1 m ρ c main_arg3 = (m ((c.tc : Thread nD τ).loc main_arg3)) := by
  show StableHlo.after hostOps0 (W0 m ρ c) (Proc.devRef .tc main_arg3) = _
  after_results_simp <;> rfl
theorem edge_arg4 (c : Dev nD) : V1 m ρ c main_arg4 = (m ((c.tc : Thread nD τ).loc main_arg4)) := by
  show StableHlo.after hostOps0 (W0 m ρ c) (Proc.devRef .tc main_arg4) = _
  after_results_simp <;> rfl
theorem edge_arg5 (c : Dev nD) : V1 m ρ c main_arg5 = (m ((c.tc : Thread nD τ).loc main_arg5)) := by
  show StableHlo.after hostOps0 (W0 m ρ c) (Proc.devRef .tc main_arg5) = _
  after_results_simp <;> rfl
theorem edge_arg6 (c : Dev nD) : V1 m ρ c main_arg6 = (m ((c.tc : Thread nD τ).loc main_arg6)) := by
  show StableHlo.after hostOps0 (W0 m ρ c) (Proc.devRef .tc main_arg6) = _
  after_results_simp <;> rfl
theorem edge_arg7 (c : Dev nD) : V1 m ρ c main_arg7 = (m ((c.tc : Thread nD τ).loc main_arg7)) := by
  show StableHlo.after hostOps0 (W0 m ρ c) (Proc.devRef .tc main_arg7) = _
  after_results_simp <;> rfl

/-- The destination indices, as the averaging operations read them. -/
theorem dst_indices (c : Dev nD) :
    W2 m ρ c (Proc.devRef .tc main_v3) = Cert.ReferenceIdeal.Read.val_main_v3 (F := F) (m ((c.tc : Thread nD τ).loc main_arg1)) := by
  rw [W2_of_ne m ρ c main_v3 (by decide)]
  show StableHlo.after hostOps0 (W0 m ρ c) (Proc.devRef .tc main_v3) = _
  after_results
  rfl

/-! ## What the node region finds -/

theorem node_mean (c : Dev nD) :
    V3 m ρ c main_v30 = nodeMean (Cert.ReferenceIdeal.Read.val_main_v3 (F := F) (m ((c.tc : Thread nD τ).loc main_arg1))) ((dat0 (V1 m ρ) c).arrAt 8 cfg0.N) := by
  rw [← dst_indices m ρ c, ← W2_arr m ρ c 8]
  show StableHlo.after hostOps1 (W2 m ρ c) (Proc.devRef .tc main_v30) = _
  after_results
  rfl

theorem node_arg0 (c : Dev nD) : V3 m ρ c main_arg0 = (m ((c.tc : Thread nD τ).loc main_arg0)) :=
  ((W4_arr m ρ c 0).trans (((dat1 (V3 m ρ) c).arrAt_in 0 rfl _).trans (A_eq1 (V3 m ρ) c 0))).symm.trans (W4_main_arg0 m ρ c)
theorem node_arg8 (c : Dev nD) : V3 m ρ c main_arg8 = (m ((c.tc : Thread nD τ).loc main_arg8)) :=
  ((W4_arr m ρ c 2).trans (((dat1 (V3 m ρ) c).arrAt_in 2 rfl _).trans (A_eq1 (V3 m ρ) c 2))).symm.trans (W4_main_arg8 m ρ c)
theorem node_arg9 (c : Dev nD) : V3 m ρ c main_arg9 = (m ((c.tc : Thread nD τ).loc main_arg9)) :=
  ((W4_arr m ρ c 3).trans (((dat1 (V3 m ρ) c).arrAt_in 3 rfl _).trans (A_eq1 (V3 m ρ) c 3))).symm.trans (W4_main_arg9 m ρ c)
theorem node_arg10 (c : Dev nD) : V3 m ρ c main_arg10 = (m ((c.tc : Thread nD τ).loc main_arg10)) :=
  ((W4_arr m ρ c 4).trans (((dat1 (V3 m ρ) c).arrAt_in 4 rfl _).trans (A_eq1 (V3 m ρ) c 4))).symm.trans (W4_main_arg10 m ρ c)
theorem node_arg11 (c : Dev nD) : V3 m ρ c main_arg11 = (m ((c.tc : Thread nD τ).loc main_arg11)) :=
  ((W4_arr m ρ c 5).trans (((dat1 (V3 m ρ) c).arrAt_in 5 rfl _).trans (A_eq1 (V3 m ρ) c 5))).symm.trans (W4_main_arg11 m ρ c)

end Cert.KernelIdeal.Boundary

end
-- ==== Proof.RowAlg.lean ====
/-
  Row algebra shared by the two message-passing kernels and their reference.

  Every array of the claim is a matrix of rows (one row per edge, or per node), and each multilayer perceptron acts on a row
  at a time: a row of the result depends only on the same row of the row-indexed operands and on the whole weight matrices.
  This module states that dependence once, over bare row vectors `Fin k → EReal`, and proves the layout facts that turn a
  whole-matrix operation read at `(p, q)` into an operation on row `p`:
  * a concatenation along the feature axis read at `(p, k)` is the concatenation of the operands' rows `p` read at `k`;
  * a matrix product into a zero accumulator read at `(p, q)` is `∑ k, l (p, k) * r (k, q)`;
  * a bias vector reshaped to one row and broadcast over the rows, read at `(p, j)`, is the bias at `j`.
-/
import Idealize.ShloMosaic.PureOps.Ideal.Laws
import Idealize.ShloMosaic.Lib.ValueIdx
import Idealize.ShloMosaic.Lib.Pipeline.Value

noncomputable section

namespace Cert.RowAlg

open Idealize.ShloMosaic Idealize.ShloMosaic.ValueIdx Idealize.ShloMosaic.Pipeline

/-! ## Rows laid end to end -/

/-- Three rows of 64 features laid end to end: a row of 192. -/
def cat3 {α : Type} (f g h : Fin 64 → α) (k : Fin 192) : α :=
  if h1 : k.val < 64 then f ⟨k.val, h1⟩
  else if h2 : k.val < 128 then g ⟨k.val - 64, by omega⟩
  else h ⟨k.val - 128, by have := k.isLt; omega⟩

/-- Two rows of 64 features laid end to end: a row of 128. -/
def cat2 {α : Type} (f g : Fin 64 → α) (k : Fin 128) : α :=
  if h1 : k.val < 64 then f ⟨k.val, h1⟩ else g ⟨k.val - 64, by have := k.isLt; omega⟩

/-- A three-piece concatenation along the feature axis, read at row `p` and feature `k`, is the three operands' rows
    `p` laid end to end, read at `k`. -/
theorem concatenate3_row {α : Type} {n : Nat} (a b c : (⟨2, ![n, 64]⟩ : Shape).Idx → α)
    (h : Shape.Concatenates [(⟨2, ![n, 64]⟩ : Shape), ⟨2, ![n, 64]⟩, ⟨2, ![n, 64]⟩] ⟨2, ![n, 192]⟩ 1) (p : Fin n) (k : Fin 192) :
    concatenate (⟨2, ![n, 192]⟩ : Shape) 1 [⟨⟨2, ![n, 64]⟩, a⟩, ⟨⟨2, ![n, 64]⟩, b⟩, ⟨⟨2, ![n, 64]⟩, c⟩] h (ix2 p k)
      = cat3 (fun l => a (ix2 p l)) (fun l => b (ix2 p l)) (fun l => c (ix2 p l)) k := by
  unfold cat3
  split_ifs with h1 h2
  · exact concatenate_apply_piece (t := (⟨2, ![n, 192]⟩ : Shape)) (1 : Fin 2) [⟨⟨2, ![n, 64]⟩, a⟩, ⟨⟨2, ![n, 64]⟩, b⟩, ⟨⟨2, ![n, 64]⟩, c⟩] h (ix2 p k) 0 (by show 0 < 3; omega) _ a rfl rfl 0 rfl (ix2 p ⟨k.val, h1⟩)
      (fun d hd => by match d with | ⟨0, _⟩ => rfl | ⟨1, _⟩ => exact absurd rfl hd) (by show 0 + k.val = k.val; omega)
  · exact concatenate_apply_piece (t := (⟨2, ![n, 192]⟩ : Shape)) (1 : Fin 2) [⟨⟨2, ![n, 64]⟩, a⟩, ⟨⟨2, ![n, 64]⟩, b⟩, ⟨⟨2, ![n, 64]⟩, c⟩] h (ix2 p k) 1 (by show 1 < 3; omega) _ b rfl rfl 64 rfl (ix2 p ⟨k.val - 64, by omega⟩)
      (fun d hd => by match d with | ⟨0, _⟩ => rfl | ⟨1, _⟩ => exact absurd rfl hd) (by show 64 + (k.val - 64) = k.val; omega)
  · exact concatenate_apply_piece (t := (⟨2, ![n, 192]⟩ : Shape)) (1 : Fin 2) [⟨⟨2, ![n, 64]⟩, a⟩, ⟨⟨2, ![n, 64]⟩, b⟩, ⟨⟨2, ![n, 64]⟩, c⟩] h (ix2 p k) 2 (by show 2 < 3; omega) _ c rfl rfl 128 rfl
      (ix2 p ⟨k.val - 128, by have := k.isLt; omega⟩)
      (fun d hd => by match d with | ⟨0, _⟩ => rfl | ⟨1, _⟩ => exact absurd rfl hd) (by show 128 + (k.val - 128) = k.val; omega)

/-- A two-piece concatenation along the feature axis, read at row `p` and feature `k`, is the two operands' rows `p` laid
    end to end, read at `k`. -/
theorem concatenate2_row {α : Type} {n : Nat} (a b : (⟨2, ![n, 64]⟩ : Shape).Idx → α)
    (h : Shape.Concatenates [(⟨2, ![n, 64]⟩ : Shape), ⟨2, ![n, 64]⟩] ⟨2, ![n, 128]⟩ 1) (p : Fin n) (k : Fin 128) :
    concatenate (⟨2, ![n, 128]⟩ : Shape) 1 [⟨⟨2, ![n, 64]⟩, a⟩, ⟨⟨2, ![n, 64]⟩, b⟩] h (ix2 p k)
      = cat2 (fun l => a (ix2 p l)) (fun l => b (ix2 p l)) k := by
  unfold cat2
  split_ifs with h1
  · exact concatenate_apply_piece (t := (⟨2, ![n, 128]⟩ : Shape)) (1 : Fin 2) [⟨⟨2, ![n, 64]⟩, a⟩, ⟨⟨2, ![n, 64]⟩, b⟩] h (ix2 p k) 0 (by show 0 < 2; omega) _ a rfl rfl 0 rfl (ix2 p ⟨k.val, h1⟩)
      (fun d hd => by match d with | ⟨0, _⟩ => rfl | ⟨1, _⟩ => exact absurd rfl hd) (by show 0 + k.val = k.val; omega)
  · exact concatenate_apply_piece (t := (⟨2, ![n, 128]⟩ : Shape)) (1 : Fin 2) [⟨⟨2, ![n, 64]⟩, a⟩, ⟨⟨2, ![n, 64]⟩, b⟩] h (ix2 p k) 1 (by show 1 < 2; omega) _ b rfl rfl 64 rfl
      (ix2 p ⟨k.val - 64, by have := k.isLt; omega⟩)
      (fun d hd => by match d with | ⟨0, _⟩ => rfl | ⟨1, _⟩ => exact absurd rfl hd) (by show 64 + (k.val - 64) = k.val; omega)

/-! ## A matrix product read at an entry -/

/-- A product of an `n × K` and a `K × N` matrix accumulated into zero, read at `(p, q)`: the sum over the contracted
    coordinate. The four hypotheses say which operand coordinate each output or contraction coordinate feeds (the
    dimension numbers of a plain row-by-column product). -/
theorem matmul_zero_row {n K N : Nat} {φ₁ φ₂ : FTy}
    (d : DotDims (⟨2, ![n, K]⟩ : Shape) ⟨2, ![K, N]⟩ ⟨2, ![n, N]⟩) (hr : d.contr.rank = 1)
    (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (l : FVec Ideal ⟨2, ![n, K]⟩ φ₁) (r : FVec Ideal ⟨2, ![K, N]⟩ φ₂) (p : Fin n) (q : Fin N) :
    FloatOps.matmul d prec l r (constant ⟨2, ![n, N]⟩ .f32 0x00000000#32) (ix2 p q) = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-! ## A bias broadcast over the rows -/

/-- A vector of 128 reshaped to one row and broadcast over `n` rows, read at `(p, j)`, is the vector at `j`. -/
theorem bias128_row {α : Type} {n : Nat} (b : (⟨1, ![128]⟩ : Shape).Idx → α)
    (h1 : (⟨1, ![128]⟩ : Shape).ShapeCasts ⟨2, ![1, 128]⟩) (h2 : (⟨2, ![1, 128]⟩ : Shape).Broadcasts ⟨2, ![n, 128]⟩)
    (p : Fin n) (j : Fin 128) :
    broadcastTo (⟨2, ![n, 128]⟩ : Shape) (shapeCast ⟨2, ![1, 128]⟩ b h1) h2 (ix2 p j) = b (ix1 j) := by
  rw [broadcastTo_apply _ h2 (ix2 p j) (ix2 (0 : Fin 1) j) (fun a => by
    match a with
    | ⟨0, _⟩ => show 0 = if (1 : Nat) = 1 then 0 else _; rw [if_pos rfl]
    | ⟨1, _⟩ => show j.val = if (128 : Nat) = 1 then 0 else j.val; rw [if_neg (by decide)])]
  refine (shapeCast_addUnit_apply ![128] b h1 (ix2 (0 : Fin 1) j)).trans (congrArg b ?_)
  funext a; match a with | ⟨0, _⟩ => rfl

/-- A vector of 64 reshaped to one row and broadcast over `n` rows, read at `(p, j)`, is the vector at `j`. -/
theorem bias64_row {α : Type} {n : Nat} (b : (⟨1, ![64]⟩ : Shape).Idx → α)
    (h1 : (⟨1, ![64]⟩ : Shape).ShapeCasts ⟨2, ![1, 64]⟩) (h2 : (⟨2, ![1, 64]⟩ : Shape).Broadcasts ⟨2, ![n, 64]⟩)
    (p : Fin n) (j : Fin 64) :
    broadcastTo (⟨2, ![n, 64]⟩ : Shape) (shapeCast ⟨2, ![1, 64]⟩ b h1) h2 (ix2 p j) = b (ix1 j) := by
  rw [broadcastTo_apply _ h2 (ix2 p j) (ix2 (0 : Fin 1) j) (fun a => by
    match a with
    | ⟨0, _⟩ => show 0 = if (1 : Nat) = 1 then 0 else _; rw [if_pos rfl]
    | ⟨1, _⟩ => show j.val = if (64 : Nat) = 1 then 0 else j.val; rw [if_neg (by decide)])]
  refine (shapeCast_addUnit_apply ![64] b h1 (ix2 (0 : Fin 1) j)).trans (congrArg b ?_)
  funext a; match a with | ⟨0, _⟩ => rfl

/-! ## The two perceptrons on a row -/

/-- The float zero the rectifier compares with, kept as its word. -/
abbrev zeroWord : EReal := Ideal.ofBits .f32 0x00000000#32

/-- The edge update's hidden layer on one edge: from the source row `xs`, the destination row `xd` and the edge row `e`, the
    rectified affine image of `[xs, xd, e + xs · W_msg]`. -/
def edgeHidden (xs xd e : Fin 64 → EReal) (wm : Fin 64 → Fin 64 → EReal) (w1 : Fin 192 → Fin 128 → EReal) (b1 : Fin 128 → EReal)
    (j : Fin 128) : EReal :=
  max ((∑ k : Fin 192, cat3 xs xd (fun l => e l + ∑ m : Fin 64, xs m * wm m l) k * w1 k j) + b1 j) zeroWord

/-- The new edge row, with the residual added LAST but for the output bias: `(e + hidden · W₂) + b₂`. -/
def edgeRow (xs xd e : Fin 64 → EReal) (wm : Fin 64 → Fin 64 → EReal) (w1 : Fin 192 → Fin 128 → EReal) (b1 : Fin 128 → EReal)
    (w2 : Fin 128 → Fin 64 → EReal) (b2 : Fin 64 → EReal) (q : Fin 64) : EReal :=
  (e q + ∑ j : Fin 128, edgeHidden xs xd e wm w1 b1 j * w2 j q) + b2 q

/-- The same row with the output bias added to the product first, `e + (hidden · W₂ + b₂)`: one value, since addition of
    extended reals is associative. -/
theorem edgeRow_assoc (xs xd e : Fin 64 → EReal) (wm : Fin 64 → Fin 64 → EReal) (w1 : Fin 192 → Fin 128 → EReal)
    (b1 : Fin 128 → EReal) (w2 : Fin 128 → Fin 64 → EReal) (b2 : Fin 64 → EReal) (q : Fin 64) :
    e q + ((∑ j : Fin 128, edgeHidden xs xd e wm w1 b1 j * w2 j q) + b2 q) = edgeRow xs xd e wm w1 b1 w2 b2 q :=
  (add_assoc _ _ _).symm

/-- The node update's hidden layer on one node: the rectified affine image of `[x, m]`. -/
def nodeHidden (x mm : Fin 64 → EReal) (w1 : Fin 128 → Fin 128 → EReal) (b1 : Fin 128 → EReal) (j : Fin 128) : EReal :=
  max ((∑ k : Fin 128, cat2 x mm k * w1 k j) + b1 j) zeroWord

/-- The new node row: `(x + hidden · W₂) + b₂`. -/
def nodeRow (x mm : Fin 64 → EReal) (w1 : Fin 128 → Fin 128 → EReal) (b1 : Fin 128 → EReal)
    (w2 : Fin 128 → Fin 64 → EReal) (b2 : Fin 64 → EReal) (q : Fin 64) : EReal :=
  (x q + ∑ j : Fin 128, nodeHidden x mm w1 b1 j * w2 j q) + b2 q

theorem nodeRow_assoc (x mm : Fin 64 → EReal) (w1 : Fin 128 → Fin 128 → EReal) (b1 : Fin 128 → EReal)
    (w2 : Fin 128 → Fin 64 → EReal) (b2 : Fin 64 → EReal) (q : Fin 64) :
    x q + ((∑ j : Fin 128, nodeHidden x mm w1 b1 j * w2 j q) + b2 q) = nodeRow x mm w1 b1 w2 b2 q :=
  (add_assoc _ _ _).symm

end Cert.RowAlg

end
-- ==== Proof.EdgePayload.lean ====
/-
  The edge kernel's body on a block of 4000 edges, read one entry at a time.

  Entry `(p, q)` of what the body stores is the edge update on row `p` of the blocks it loaded: the message
  `xs · W_msg` added to the edge row, the concatenation `[xs, xd, e + message]` sent through the hidden layer and the
  rectifier, the second layer, and the residual. At the ideal values a change of float format is the identity, so the
  three roundings to bf16 on the way into the matrix unit disappear, and each matrix product into a zero accumulator is
  a plain sum over the contracted coordinate.
-/
import proofs.«106935_j60120952209605_1_alg».proof.Proof.Gen.KernelIdeal.Skeleton
import proofs.«106935_j60120952209605_1_alg».proof.Proof.RowAlg

set_option maxRecDepth 16384

noncomputable section

namespace Cert.KernelIdeal.EdgeValue

open Idealize.ShloMosaic Idealize.ShloMosaic.ValueIdx Idealize.ShloMosaic.Pipeline Cert.KernelIdeal Cert.KernelIdeal.Gen Cert.RowAlg

/-! ## The three products' dimension numbers: rows by columns -/

theorem d64_lhs0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem d64_rhs1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The message product at an entry. -/
theorem message_apply (l : FVec Ideal S4000x64 .bf16) (r : FVec Ideal S64x64 .bf16) (p : Fin 4000) (q : Fin 64) :
    matmul dot_S4000x64_S64x64_S4000x64_1_0_0_1_n_n none l r (constant S4000x64 .f32 0x00000000#32) (ix2 p q)
      = ∑ k : Fin 64, l (ix2 p k) * r (ix2 k q) :=
  matmul_zero_row dot_S4000x64_S64x64_S4000x64_1_0_0_1_n_n rfl rfl d64_lhs0
    (fun i q => dot_S4000x64_S64x64_S4000x64_1_0_0_1_n_n.lhsIdx_val_of_single rfl i q)
    (fun i q => dot_S4000x64_S64x64_S4000x64_1_0_0_1_n_n.rhsIdx_val_of_single rfl i q) d64_rhs1 none l r p q

theorem d192_lhs0 (i : S4000x128.Idx) (q : dot_S4000x192_S192x128_S4000x128_1_0_0_1_n_n.contr.Idx) :
    (dot_S4000x192_S192x128_S4000x128_1_0_0_1_n_n.lhsIdx i q 0).val = (i 0).val := by
  unfold DotDims.lhsIdx
  rw [dif_neg (show ¬(0 : Fin S4000x192.rank) ∈ dot_S4000x192_S192x128_S4000x128_1_0_0_1_n_n.lhsBatch by decide), dif_pos (show (0 : Fin S4000x192.rank) ∈ dot_S4000x192_S192x128_S4000x128_1_0_0_1_n_n.lhsNonContracting by decide)]
  rfl
theorem d192_rhs1 (i : S4000x128.Idx) (q : dot_S4000x192_S192x128_S4000x128_1_0_0_1_n_n.contr.Idx) :
    (dot_S4000x192_S192x128_S4000x128_1_0_0_1_n_n.rhsIdx i q 1).val = (i 1).val := by
  unfold DotDims.rhsIdx
  rw [dif_neg (show ¬(1 : Fin S192x128.rank) ∈ dot_S4000x192_S192x128_S4000x128_1_0_0_1_n_n.rhsBatch by decide), dif_pos (show (1 : Fin S192x128.rank) ∈ dot_S4000x192_S192x128_S4000x128_1_0_0_1_n_n.rhsNonContracting by decide)]
  rfl

/-- The hidden layer's product at an entry. -/
theorem hidden_apply (l : FVec Ideal S4000x192 .bf16) (r : FVec Ideal S192x128 .bf16) (p : Fin 4000) (j : Fin 128) :
    matmul dot_S4000x192_S192x128_S4000x128_1_0_0_1_n_n none l r (constant S4000x128 .f32 0x00000000#32) (ix2 p j)
      = ∑ k : Fin 192, l (ix2 p k) * r (ix2 k j) :=
  matmul_zero_row dot_S4000x192_S192x128_S4000x128_1_0_0_1_n_n rfl rfl d192_lhs0
    (fun i q => dot_S4000x192_S192x128_S4000x128_1_0_0_1_n_n.lhsIdx_val_of_single rfl i q)
    (fun i q => dot_S4000x192_S192x128_S4000x128_1_0_0_1_n_n.rhsIdx_val_of_single rfl i q) d192_rhs1 none l r p j

theorem d128_lhs0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem d128_rhs1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The output layer's product at an entry. -/
theorem output_apply (l : FVec Ideal S4000x128 .bf16) (r : FVec Ideal S128x64 .bf16) (p : Fin 4000) (q : Fin 64) :
    matmul dot_S4000x128_S128x64_S4000x64_1_0_0_1_n_n none l r (constant S4000x64 .f32 0x00000000#32) (ix2 p q)
      = ∑ j : Fin 128, l (ix2 p j) * r (ix2 j q) :=
  matmul_zero_row dot_S4000x128_S128x64_S4000x64_1_0_0_1_n_n rfl rfl d128_lhs0
    (fun i q => dot_S4000x128_S128x64_S4000x64_1_0_0_1_n_n.lhsIdx_val_of_single rfl i q)
    (fun i q => dot_S4000x128_S128x64_S4000x64_1_0_0_1_n_n.rhsIdx_val_of_single rfl i q) d128_rhs1 none l r p q

/-! ## The stored block, entry by entry -/

/-- Entry `(p, q)` of the block the body stores is the edge update of row `p` of the loaded blocks, read at `q`. -/
theorem payload_apply (v0 v2 v4 : Vec Ideal S4000x64 .f32) (v5 : Vec Ideal S64x64 .f32) (v7 : Vec Ideal S192x128 .f32)
    (v9 : Vec Ideal S128 .f32) (v10 : Vec Ideal S128x64 .f32) (v12 : Vec Ideal S64 .f32) (p : Fin 4000) (q : Fin 64) :
    k0_pay1 v0 v2 v4 v5 v7 v9 v10 v12 (ix2 p q)
      = edgeRow (fun l => v0 (ix2 p l)) (fun l => v2 (ix2 p l)) (fun l => v4 (ix2 p l)) (fun a b => v5 (ix2 a b))
          (fun a b => v7 (ix2 a b)) (fun a => v9 (ix1 a)) (fun a b => v10 (ix2 a b)) (fun a => v12 (ix1 a)) q := by
  rw [← edgeRow_assoc]
  unfold k0_pay1
  have e0 : shapeCast S4000x64 v0 shapeCasts_S4000x64_S4000x64 = v0 := shapeCast_self v0 _
  have e2 : shapeCast S4000x64 v2 shapeCasts_S4000x64_S4000x64 = v2 := shapeCast_self v2 _
  rw [e0, e2]
  -- the residual, the output layer's product and its bias
  show v4 (ix2 p q) + (matmul (F := Ideal) dot_S4000x128_S128x64_S4000x64_1_0_0_1_n_n none _ _ _ (ix2 p q)
    + broadcastTo S4000x64 (shapeCast S1x64 v12 shapeCasts_S64_S1x64) broadcasts_S1x64_S4000x64 (ix2 p q)) = _
  rw [output_apply, bias64_row]
  refine congrArg (v4 (ix2 p q) + ·) (congrArg (· + v12 (ix1 q)) (Finset.sum_congr rfl fun j _ => ?_))
  -- the rectified hidden layer at feature `j`
  show max (matmul (F := Ideal) dot_S4000x192_S192x128_S4000x128_1_0_0_1_n_n none _ _ _ (ix2 p j)
    + broadcastTo S4000x128 (shapeCast S1x128 v9 shapeCasts_S128_S1x128) broadcasts_S1x128_S4000x128 (ix2 p j))
      (Ideal.ofBits .f32 0x00000000#32) * v10 (ix2 j q) = _
  rw [hidden_apply, bias128_row]
  unfold edgeHidden
  refine congrArg (fun z => max (z + v9 (ix1 j)) zeroWord * v10 (ix2 j q)) (Finset.sum_congr rfl fun k _ => ?_)
  -- the concatenated row at feature `k`
  refine congrArg (· * v7 (ix2 k j)) ?_
  refine (concatenate3_row _ _ _ concatenates_S4000x64_S4000x64_S4000x64_S4000x192_d1 p k).trans ?_
  refine congrArg (fun f => cat3 _ _ f k) (funext fun l => ?_)
  -- the edge row plus the message
  show v4 (ix2 p l) + matmul (F := Ideal) dot_S4000x64_S64x64_S4000x64_1_0_0_1_n_n none _ _ _ (ix2 p l) = _
  rw [message_apply]
  rfl

end Cert.KernelIdeal.EdgeValue

end
-- ==== Proof.ArraySpec.lean ====
/-
  The two results as whole-array functions of their operands.

  Row `r` of the new edge array is the edge update (RowAlg's `edgeRow`) of row `r` of the source rows, the destination
  rows and the edge rows; row `r` of the new node array is the node update (`nodeRow`) of row `r` of the node features
  and of the averaged messages. Both the kernel's regions and the reference are shown to compute these functions.
-/
import proofs.«106935_j60120952209605_1_alg».proof.Proof.RowAlg

noncomputable section

namespace Cert.ArraySpec

open Idealize.ShloMosaic Idealize.ShloMosaic.ValueIdx Cert.RowAlg

/-- Entry `(r, q)` of the new edge array. -/
def edgeEntry (xs xd e : (⟨2, ![800000, 64]⟩ : Shape).Idx → EReal) (wm : (⟨2, ![64, 64]⟩ : Shape).Idx → EReal)
    (w1 : (⟨2, ![192, 128]⟩ : Shape).Idx → EReal) (b1 : (⟨1, ![128]⟩ : Shape).Idx → EReal)
    (w2 : (⟨2, ![128, 64]⟩ : Shape).Idx → EReal) (b2 : (⟨1, ![64]⟩ : Shape).Idx → EReal) (r : Fin 800000) (q : Fin 64) : EReal :=
  edgeRow (fun l => xs (ix2 r l)) (fun l => xd (ix2 r l)) (fun l => e (ix2 r l)) (fun a b => wm (ix2 a b))
    (fun a b => w1 (ix2 a b)) (fun a => b1 (ix1 a)) (fun a b => w2 (ix2 a b)) (fun a => b2 (ix1 a)) q

/-- The new edge array as one function of the operand arrays. -/
def edgeArray (xs xd e : (⟨2, ![800000, 64]⟩ : Shape).Idx → EReal) (wm : (⟨2, ![64, 64]⟩ : Shape).Idx → EReal)
    (w1 : (⟨2, ![192, 128]⟩ : Shape).Idx → EReal) (b1 : (⟨1, ![128]⟩ : Shape).Idx → EReal)
    (w2 : (⟨2, ![128, 64]⟩ : Shape).Idx → EReal) (b2 : (⟨1, ![64]⟩ : Shape).Idx → EReal) :
    (⟨2, ![800000, 64]⟩ : Shape).Idx → EReal :=
  fun i => edgeEntry xs xd e wm w1 b1 w2 b2 (i 0) (i 1)

/-- Entry `(r, q)` of the new node array. -/
def nodeEntry (x mm : (⟨2, ![50000, 64]⟩ : Shape).Idx → EReal) (w1 : (⟨2, ![128, 128]⟩ : Shape).Idx → EReal)
    (b1 : (⟨1, ![128]⟩ : Shape).Idx → EReal) (w2 : (⟨2, ![128, 64]⟩ : Shape).Idx → EReal) (b2 : (⟨1, ![64]⟩ : Shape).Idx → EReal)
    (r : Fin 50000) (q : Fin 64) : EReal :=
  nodeRow (fun l => x (ix2 r l)) (fun l => mm (ix2 r l)) (fun a b => w1 (ix2 a b)) (fun a => b1 (ix1 a))
    (fun a b => w2 (ix2 a b)) (fun a => b2 (ix1 a)) q

/-- The new node array as one function of the operand arrays. -/
def nodeArray (x mm : (⟨2, ![50000, 64]⟩ : Shape).Idx → EReal) (w1 : (⟨2, ![128, 128]⟩ : Shape).Idx → EReal)
    (b1 : (⟨1, ![128]⟩ : Shape).Idx → EReal) (w2 : (⟨2, ![128, 64]⟩ : Shape).Idx → EReal) (b2 : (⟨1, ![64]⟩ : Shape).Idx → EReal) :
    (⟨2, ![50000, 64]⟩ : Shape).Idx → EReal :=
  fun i => nodeEntry x mm w1 b1 w2 b2 (i 0) (i 1)

end Cert.ArraySpec

end
-- ==== Proof.EdgeBlocks.lean ====
/-
  The edge region's output array, whole: row `r` of the new edge array is the edge update of row `r` of the region's
  three edge-indexed operands.

  The grid has 200 points; point `t` stages rows `4000 t … 4000 t + 3999` of the three edge-indexed operands and of the
  output, and the five weight operands whole. What point `t` writes back is therefore the restriction to its rows of ONE
  function of the operand arrays, and the 200 blocks tile the 800000 rows: row `r` is written by point `r / 4000`.
-/
import proofs.«106935_j60120952209605_1_alg».proof.Proof.Gen.KernelIdeal.Frame
import proofs.«106935_j60120952209605_1_alg».proof.Proof.EdgePayload
import proofs.«106935_j60120952209605_1_alg».proof.Proof.ArraySpec

set_option maxRecDepth 16384

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowAlg Cert.ArraySpec

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the edge-indexed windows sit at block `t` of the rows and block 0 of the
    features, the weight windows at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- What point `t` writes back is block `t` of the new edge array. -/
theorem edge_flushed (c : Dev nD) (t : Fin cfg0.N) :
    (dat0 V c).flushed 8 t = ((cfg0.win 8).blk t).view.read (Elt Ideal)
      (edgeArray (V c main_v10) (V c main_v17) (V c main_arg2) (V c main_arg3) (V c main_arg4) (V c main_arg5)
        (V c main_arg6) (V c main_arg7)) := by
  show (cfg0.win 8).cut (grid0.coords t) ((dat0 V c).after 8 t) = _
  rw [after0_8]
  unfold out0_8
  rw [View.canon_unit_zero zero2]
  simp only [View.ld_unit_zero (S := S4000x64) zero2, View.ld_unit_zero (S := S64x64) zero2,
    View.ld_unit_zero (S := S192x128) zero2, View.ld_unit_zero (S := S128) zero1, View.ld_unit_zero (S := S128x64) zero2,
    View.ld_unit_zero (S := S64) zero1]
  obtain ⟨a0, a0', a1, a1', a2, a2', a3, a3', a4, a4', a5, a6, a6', a7, a8, a8'⟩ := index_facts t
  funext j
  obtain ⟨p, q, rfl⟩ : ∃ (p : Fin 4000) (q : Fin 64), j = ix2 p q := ⟨j 0, j 1, eq_ix2 j⟩
  refine (payload_apply _ _ _ _ _ _ _ _ p q).trans ?_
  -- the row of the array this entry sits in, and its feature
  have ht : t.val < 200 := lt_of_lt_of_eq t.isLt N_0
  let R : Fin 800000 := ⟨t.val * 4000 + p.val, by have := p.isLt; omega⟩
  have e0 : ((((cfg0.win 8).blk t).view.emb (ix2 p q)) 0 : Fin 800000) = R :=
    Fin.ext (by show win0_8.index t (0 : Fin 2) * 4000 + 1 * p.val = t.val * 4000 + p.val; omega)
  have e1 : ((((cfg0.win 8).blk t).view.emb (ix2 p q)) 1 : Fin 64) = q :=
    Fin.ext (by show win0_8.index t (1 : Fin 2) * 64 + 1 * q.val = q.val; omega)
  show _ = edgeEntry (V c main_v10) (V c main_v17) (V c main_arg2) (V c main_arg3) (V c main_arg4) (V c main_arg5)
    (V c main_arg6) (V c main_arg7) ((((cfg0.win 8).blk t).view.emb (ix2 p q)) 0) ((((cfg0.win 8).blk t).view.emb (ix2 p q)) 1)
  rw [e0, e1]
  unfold edgeEntry
  -- each operand's block, read where the output block's rows say
  have r0 : (fun l : Fin 64 => iblk0 V c 0 t (ix2 p l)) = fun l => V c main_v10 (ix2 R l) := funext fun l => by
    show V c main_v10 (((cfg0.win 0).blk t).view.emb (ix2 p l)) = _
    refine congrArg (V c main_v10) (funext fun a => Fin.ext ?_)
    match a with
    | ⟨0, _⟩ => show win0_0.index t (0 : Fin 2) * 4000 + 1 * p.val = t.val * 4000 + p.val; omega
    | ⟨1, _⟩ => show win0_0.index t (1 : Fin 2) * 64 + 1 * l.val = l.val; omega
  have r1 : (fun l : Fin 64 => iblk0 V c 1 t (ix2 p l)) = fun l => V c main_v17 (ix2 R l) := funext fun l => by
    show V c main_v17 (((cfg0.win 1).blk t).view.emb (ix2 p l)) = _
    refine congrArg (V c main_v17) (funext fun a => Fin.ext ?_)
    match a with
    | ⟨0, _⟩ => show win0_1.index t (0 : Fin 2) * 4000 + 1 * p.val = t.val * 4000 + p.val; omega
    | ⟨1, _⟩ => show win0_1.index t (1 : Fin 2) * 64 + 1 * l.val = l.val; omega
  have r2 : (fun l : Fin 64 => iblk0 V c 2 t (ix2 p l)) = fun l => V c main_arg2 (ix2 R l) := funext fun l => by
    show V c main_arg2 (((cfg0.win 2).blk t).view.emb (ix2 p l)) = _
    refine congrArg (V c main_arg2) (funext fun a => Fin.ext ?_)
    match a with
    | ⟨0, _⟩ => show win0_2.index t (0 : Fin 2) * 4000 + 1 * p.val = t.val * 4000 + p.val; omega
    | ⟨1, _⟩ => show win0_2.index t (1 : Fin 2) * 64 + 1 * l.val = l.val; omega
  have r3 : (fun (a : Fin 64) (b : Fin 64) => iblk0 V c 3 t (ix2 a b)) = fun a b => V c main_arg3 (ix2 a b) := funext fun a => funext fun b => by
    show V c main_arg3 (((cfg0.win 3).blk t).view.emb (ix2 a b)) = _
    refine congrArg (V c main_arg3) (funext fun d => Fin.ext ?_)
    match d with
    | ⟨0, _⟩ => show win0_3.index t (0 : Fin 2) * 64 + 1 * a.val = a.val; omega
    | ⟨1, _⟩ => show win0_3.index t (1 : Fin 2) * 64 + 1 * b.val = b.val; omega
  have r4 : (fun (a : Fin 192) (b : Fin 128) => iblk0 V c 4 t (ix2 a b)) = fun a b => V c main_arg4 (ix2 a b) := funext fun a => funext fun b => by
    show V c main_arg4 (((cfg0.win 4).blk t).view.emb (ix2 a b)) = _
    refine congrArg (V c main_arg4) (funext fun d => Fin.ext ?_)
    match d with
    | ⟨0, _⟩ => show win0_4.index t (0 : Fin 2) * 192 + 1 * a.val = a.val; omega
    | ⟨1, _⟩ => show win0_4.index t (1 : Fin 2) * 128 + 1 * b.val = b.val; omega
  have r5 : (fun (a : Fin 128) => iblk0 V c 5 t (ix1 a)) = fun a => V c main_arg5 (ix1 a) := funext fun a => by
    show V c main_arg5 (((cfg0.win 5).blk t).view.emb (ix1 a)) = _
    refine congrArg (V c main_arg5) (funext fun d => Fin.ext ?_)
    match d with
    | ⟨0, _⟩ => show win0_5.index t (0 : Fin 1) * 128 + 1 * a.val = a.val; omega
  have r6 : (fun (a : Fin 128) (b : Fin 64) => iblk0 V c 6 t (ix2 a b)) = fun a b => V c main_arg6 (ix2 a b) := funext fun a => funext fun b => by
    show V c main_arg6 (((cfg0.win 6).blk t).view.emb (ix2 a b)) = _
    refine congrArg (V c main_arg6) (funext fun d => Fin.ext ?_)
    match d with
    | ⟨0, _⟩ => show win0_6.index t (0 : Fin 2) * 128 + 1 * a.val = a.val; omega
    | ⟨1, _⟩ => show win0_6.index t (1 : Fin 2) * 64 + 1 * b.val = b.val; omega
  have r7 : (fun (a : Fin 64) => iblk0 V c 7 t (ix1 a)) = fun a => V c main_arg7 (ix1 a) := funext fun a => by
    show V c main_arg7 (((cfg0.win 7).blk t).view.emb (ix1 a)) = _
    refine congrArg (V c main_arg7) (funext fun d => Fin.ext ?_)
    match d with
    | ⟨0, _⟩ => show win0_7.index t (0 : Fin 1) * 64 + 1 * a.val = a.val; omega
  rw [r0, r1, r2, r3, r4, r5, r6, r7]

/-- An index of the array is in point `t`'s block iff each coordinate is in the block's range on its axis. -/
theorem mem_block (t : Fin cfg0.N) (i : S800000x64.Idx) :
    i ∈ ((cfg0.win 8).blk t).view.set ↔ ∀ a : Fin 2, win0_8.index t a * S4000x64.size a ≤ (i a).val ∧ (i a).val < win0_8.index t a * S4000x64.size a + S4000x64.size a := by
  show i ∈ ((View.whole main_v18).slice (win0_8.rect t)).set ↔ _
  rw [View.set_slice_whole, Rect.mem_set_unit]
  exact Iff.rfl

/-- Every row is written by some point: row `r` by point `r / 4000`. -/
theorem edge_cover (i : S800000x64.Idx) :
    ∃ t : Fin cfg0.N, (cfg0.win 8).flush t = true ∧ i ∈ ((cfg0.win 8).blk t).view.set := by
  have hi0 : (i 0).val < 800000 := (i 0).isLt
  have hi1 : (i 1).val < 64 := (i 1).isLt
  have hN : (i 0).val / 4000 < cfg0.N := lt_of_lt_of_eq (by omega : (i 0).val / 4000 < 200) N_0.symm
  obtain ⟨-, -, -, -, -, -, -, -, -, -, -, -, -, -, a8, a8'⟩ := index_facts ⟨(i 0).val / 4000, hN⟩
  refine ⟨⟨(i 0).val / 4000, hN⟩, flush0_8 _, ?_⟩
  rw [mem_block]
  intro a
  match a with
  | ⟨0, _⟩ =>
    show win0_8.index ⟨(i 0).val / 4000, hN⟩ (0 : Fin 2) * 4000 ≤ (i 0).val ∧ (i 0).val < win0_8.index ⟨(i 0).val / 4000, hN⟩ (0 : Fin 2) * 4000 + 4000
    rw [a8]; show (i 0).val / 4000 * 4000 ≤ (i 0).val ∧ (i 0).val < (i 0).val / 4000 * 4000 + 4000; omega
  | ⟨1, _⟩ =>
    show win0_8.index ⟨(i 0).val / 4000, hN⟩ (1 : Fin 2) * 64 ≤ (i 1).val ∧ (i 1).val < win0_8.index ⟨(i 0).val / 4000, hN⟩ (1 : Fin 2) * 64 + 64
    rw [a8']; omega

/-- THE NEW EDGE ARRAY after the region: the edge update of the operand arrays as the region finds them, row by row. -/
theorem edge_final (c : Dev nD) :
    (dat0 V c).arrAt 8 cfg0.N = edgeArray (V c main_v10) (V c main_v17) (V c main_arg2) (V c main_arg3) (V c main_arg4)
      (V c main_arg5) (V c main_arg6) (V c main_arg7) :=
  (dat0 V c).arrAt_eq_of_cover 8 _ (fun t _ => edge_flushed V c t) edge_cover

end Cert.KernelIdeal.EdgeValue

end
-- ==== Proof.NodePayload.lean ====
/-
  The node kernel's body on a block of 5000 nodes, read one entry at a time.

  Entry `(p, q)` of what the body stores is the node update on row `p` of the two node-indexed blocks it loaded: the
  concatenation `[x, m]` of the node's features and its averaged incoming messages sent through the hidden layer and the
  rectifier, the second layer, and the residual. The roundings to bf16 on the way into the matrix unit are the identity at
  the ideal values, and each matrix product into a zero accumulator is a plain sum over the contracted coordinate.
-/
import proofs.«106935_j60120952209605_1_alg».proof.Proof.Gen.KernelIdeal.Skeleton
import proofs.«106935_j60120952209605_1_alg».proof.Proof.RowAlg

set_option maxRecDepth 16384

noncomputable section

namespace Cert.KernelIdeal.NodeValue

open Idealize.ShloMosaic Idealize.ShloMosaic.ValueIdx Idealize.ShloMosaic.Pipeline Cert.KernelIdeal Cert.KernelIdeal.Gen Cert.RowAlg

/-! ## The two products' dimension numbers: rows by columns -/

theorem dh_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dh_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The hidden layer's product at an entry. -/
theorem hidden_apply (l : FVec Ideal S5000x128 .bf16) (r : FVec Ideal S128x128 .bf16) (p : Fin 5000) (j : Fin 128) :
    matmul dot_S5000x128_S128x128_S5000x128_1_0_0_1_n_n none l r (constant S5000x128 .f32 0x00000000#32) (ix2 p j)
      = ∑ k : Fin 128, l (ix2 p k) * r (ix2 k j) :=
  matmul_zero_row dot_S5000x128_S128x128_S5000x128_1_0_0_1_n_n rfl rfl dh_lhs0
    (fun i q => dot_S5000x128_S128x128_S5000x128_1_0_0_1_n_n.lhsIdx_val_of_single rfl i q)
    (fun i q => dot_S5000x128_S128x128_S5000x128_1_0_0_1_n_n.rhsIdx_val_of_single rfl i q) dh_rhs1 none l r p j

theorem dout_lhs0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dout_rhs1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The output layer's product at an entry. -/
theorem output_apply (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ j : Fin 128, l (ix2 p j) * r (ix2 j q) :=
  matmul_zero_row dot_S5000x128_S128x64_S5000x64_1_0_0_1_n_n rfl rfl dout_lhs0
    (fun i q => dot_S5000x128_S128x64_S5000x64_1_0_0_1_n_n.lhsIdx_val_of_single rfl i q)
    (fun i q => dot_S5000x128_S128x64_S5000x64_1_0_0_1_n_n.rhsIdx_val_of_single rfl i q) dout_rhs1 none l r p q

/-! ## The stored block, entry by entry -/

/-- Entry `(p, q)` of the block the body stores is the node update of row `p` of the loaded blocks, read at `q`. -/
theorem payload_apply (v0 v1 : Vec Ideal S5000x64 .f32) (v3 : Vec Ideal S128x128 .f32) (v5 : Vec Ideal S128 .f32)
    (v6 : Vec Ideal S128x64 .f32) (v8 : Vec Ideal S64 .f32) (p : Fin 5000) (q : Fin 64) :
    k1_pay1 v0 v1 v3 v5 v6 v8 (ix2 p q)
      = nodeRow (fun l => v0 (ix2 p l)) (fun l => v1 (ix2 p l)) (fun a b => v3 (ix2 a b)) (fun a => v5 (ix1 a))
          (fun a b => v6 (ix2 a b)) (fun a => v8 (ix1 a)) q := by
  rw [← nodeRow_assoc]
  unfold k1_pay1
  have e1 : shapeCast S5000x64 v1 shapeCasts_S5000x64_S5000x64 = v1 := shapeCast_self v1 _
  rw [e1]
  -- the residual, the output layer's product and its bias
  show v0 (ix2 p q) + (matmul (F := Ideal) dot_S5000x128_S128x64_S5000x64_1_0_0_1_n_n none _ _ _ (ix2 p q)
    + broadcastTo S5000x64 (shapeCast S1x64 v8 shapeCasts_S64_S1x64) broadcasts_S1x64_S5000x64 (ix2 p q)) = _
  rw [output_apply, bias64_row]
  refine congrArg (v0 (ix2 p q) + ·) (congrArg (· + v8 (ix1 q)) (Finset.sum_congr rfl fun j _ => ?_))
  -- the rectified hidden layer at feature `j`
  show max (matmul (F := Ideal) dot_S5000x128_S128x128_S5000x128_1_0_0_1_n_n none _ _ _ (ix2 p j)
    + broadcastTo S5000x128 (shapeCast S1x128 v5 shapeCasts_S128_S1x128) broadcasts_S1x128_S5000x128 (ix2 p j))
      (Ideal.ofBits .f32 0x00000000#32) * v6 (ix2 j q) = _
  rw [hidden_apply, bias128_row]
  unfold nodeHidden
  refine congrArg (fun z => max (z + v5 (ix1 j)) zeroWord * v6 (ix2 j q)) (Finset.sum_congr rfl fun k _ => ?_)
  -- the concatenated row at feature `k`
  refine congrArg (· * v3 (ix2 k j)) ?_
  exact concatenate2_row _ _ concatenates_S5000x64_S5000x64_S5000x128_d1 p k

end Cert.KernelIdeal.NodeValue

end
-- ==== Proof.NodeBlocks.lean ====
/-
  The node region's output array, whole: row `r` of the new node array is the node update of row `r` of the region's two
  node-indexed operands.

  The grid has 10 points; point `t` stages rows `5000 t … 5000 t + 4999` of the node features, of the averaged messages and
  of the output, and the four weight operands whole. What point `t` writes back is the restriction to its rows of ONE
  function of the operand arrays, and the 10 blocks tile the 50000 rows: row `r` is written by point `r / 5000`.
-/
import proofs.«106935_j60120952209605_1_alg».proof.Proof.Gen.KernelIdeal.Frame
import proofs.«106935_j60120952209605_1_alg».proof.Proof.NodePayload
import proofs.«106935_j60120952209605_1_alg».proof.Proof.ArraySpec

set_option maxRecDepth 16384

noncomputable section

namespace Cert.KernelIdeal.NodeValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowAlg Cert.ArraySpec

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the node-indexed windows sit at block `t` of the rows and block 0 of the
    features, the weight windows at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What point `t` writes back is block `t` of the new node array. -/
theorem node_flushed (c : Dev nD) (t : Fin cfg1.N) :
    (dat1 V c).flushed 6 t = ((cfg1.win 6).blk t).view.read (Elt Ideal)
      (nodeArray (V c main_arg0) (V c main_v30) (V c main_arg8) (V c main_arg9) (V c main_arg10) (V c main_arg11)) := by
  show (cfg1.win 6).cut (grid1.coords t) ((dat1 V c).after 6 t) = _
  rw [after1_6]
  unfold out1_6
  rw [View.canon_unit_zero zero2]
  simp only [View.ld_unit_zero (S := S5000x64) zero2, View.ld_unit_zero (S := S128x128) zero2,
    View.ld_unit_zero (S := S128) zero1, View.ld_unit_zero (S := S128x64) zero2, View.ld_unit_zero (S := S64) zero1]
  obtain ⟨a0, a0', a1, a1', a2, a2', a3, a4, a4', a5, a6, a6'⟩ := index_facts t
  funext j
  obtain ⟨p, q, rfl⟩ : ∃ (p : Fin 5000) (q : Fin 64), j = ix2 p q := ⟨j 0, j 1, eq_ix2 j⟩
  refine (payload_apply _ _ _ _ _ _ p q).trans ?_
  -- the row of the array this entry sits in, and its feature
  have ht : t.val < 10 := lt_of_lt_of_eq t.isLt N_1
  let R : Fin 50000 := ⟨t.val * 5000 + p.val, by have := p.isLt; omega⟩
  have e0 : ((((cfg1.win 6).blk t).view.emb (ix2 p q)) 0 : Fin 50000) = R :=
    Fin.ext (by show win1_6.index t (0 : Fin 2) * 5000 + 1 * p.val = t.val * 5000 + p.val; omega)
  have e1 : ((((cfg1.win 6).blk t).view.emb (ix2 p q)) 1 : Fin 64) = q :=
    Fin.ext (by show win1_6.index t (1 : Fin 2) * 64 + 1 * q.val = q.val; omega)
  show _ = nodeEntry (V c main_arg0) (V c main_v30) (V c main_arg8) (V c main_arg9) (V c main_arg10) (V c main_arg11)
    ((((cfg1.win 6).blk t).view.emb (ix2 p q)) 0) ((((cfg1.win 6).blk t).view.emb (ix2 p q)) 1)
  rw [e0, e1]
  unfold nodeEntry
  -- each operand's block, read where the output block's rows say
  have r0 : (fun l : Fin 64 => iblk1 V c 0 t (ix2 p l)) = fun l => V c main_arg0 (ix2 R l) := funext fun l => by
    show V c main_arg0 (((cfg1.win 0).blk t).view.emb (ix2 p l)) = _
    refine congrArg (V c main_arg0) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * l.val = l.val; omega
  have r1 : (fun l : Fin 64 => iblk1 V c 1 t (ix2 p l)) = fun l => V c main_v30 (ix2 R l) := funext fun l => by
    show V c main_v30 (((cfg1.win 1).blk t).view.emb (ix2 p l)) = _
    refine congrArg (V c main_v30) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * l.val = l.val; omega
  have r2 : (fun (a : Fin 128) (b : Fin 128) => iblk1 V c 2 t (ix2 a b)) = fun a b => V c main_arg8 (ix2 a b) := funext fun a => funext fun b => by
    show V c main_arg8 (((cfg1.win 2).blk t).view.emb (ix2 a b)) = _
    refine congrArg (V c main_arg8) (funext fun d => Fin.ext ?_)
    match d with
    | ⟨0, _⟩ => show win1_2.index t (0 : Fin 2) * 128 + 1 * a.val = a.val; omega
    | ⟨1, _⟩ => show win1_2.index t (1 : Fin 2) * 128 + 1 * b.val = b.val; omega
  have r3 : (fun (a : Fin 128) => iblk1 V c 3 t (ix1 a)) = fun a => V c main_arg9 (ix1 a) := funext fun a => by
    show V c main_arg9 (((cfg1.win 3).blk t).view.emb (ix1 a)) = _
    refine congrArg (V c main_arg9) (funext fun d => Fin.ext ?_)
    match d with
    | ⟨0, _⟩ => show win1_3.index t (0 : Fin 1) * 128 + 1 * a.val = a.val; omega
  have r4 : (fun (a : Fin 128) (b : Fin 64) => iblk1 V c 4 t (ix2 a b)) = fun a b => V c main_arg10 (ix2 a b) := funext fun a => funext fun b => by
    show V c main_arg10 (((cfg1.win 4).blk t).view.emb (ix2 a b)) = _
    refine congrArg (V c main_arg10) (funext fun d => Fin.ext ?_)
    match d with
    | ⟨0, _⟩ => show win1_4.index t (0 : Fin 2) * 128 + 1 * a.val = a.val; omega
    | ⟨1, _⟩ => show win1_4.index t (1 : Fin 2) * 64 + 1 * b.val = b.val; omega
  have r5 : (fun (a : Fin 64) => iblk1 V c 5 t (ix1 a)) = fun a => V c main_arg11 (ix1 a) := funext fun a => by
    show V c main_arg11 (((cfg1.win 5).blk t).view.emb (ix1 a)) = _
    refine congrArg (V c main_arg11) (funext fun d => Fin.ext ?_)
    match d with
    | ⟨0, _⟩ => show win1_5.index t (0 : Fin 1) * 64 + 1 * a.val = a.val; omega
  rw [r0, r1, r2, r3, r4, r5]

/-- An index of the array is in point `t`'s block iff each coordinate is in the block's range on its axis. -/
theorem mem_block (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v31).slice (win1_6.rect t)).set ↔ _
  rw [View.set_slice_whole, Rect.mem_set_unit]
  exact Iff.rfl

/-- Every row is written by some point: row `r` by point `r / 5000`. -/
theorem node_cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : (i 0).val / 5000 < cfg1.N := lt_of_lt_of_eq (by omega : (i 0).val / 5000 < 10) N_1.symm
  obtain ⟨-, -, -, -, -, -, -, -, -, -, a6, a6'⟩ := index_facts ⟨(i 0).val / 5000, hN⟩
  refine ⟨⟨(i 0).val / 5000, hN⟩, flush1_6 _, ?_⟩
  rw [mem_block]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [a6]; show (i 0).val / 5000 * 5000 ≤ (i 0).val ∧ (i 0).val < (i 0).val / 5000 * 5000 + 5000; omega
  | ⟨1, _⟩ =>
    show win1_6.index ⟨(i 0).val / 5000, hN⟩ (1 : Fin 2) * 64 ≤ (i 1).val ∧ (i 1).val < win1_6.index ⟨(i 0).val / 5000, hN⟩ (1 : Fin 2) * 64 + 64
    rw [a6']; omega

/-- THE NEW NODE ARRAY after the region: the node update of the operand arrays as the region finds them, row by row. -/
theorem node_final (c : Dev nD) :
    (dat1 V c).arrAt 6 cfg1.N = nodeArray (V c main_arg0) (V c main_v30) (V c main_arg8) (V c main_arg9) (V c main_arg10)
      (V c main_arg11) :=
  (dat1 V c).arrAt_eq_of_cover 6 _ (fun t _ => node_flushed V c t) node_cover

end Cert.KernelIdeal.NodeValue

end
-- ==== Proof.KernelValue.lean ====
/-
  The idealized kernel's two results as functions of the launch arguments.

  The new edge array is the edge update, row by row, of the node features gathered at the edges' sources and destinations
  and of the edge features. The new node array is the node update, row by row, of the node features and of the new edge
  rows averaged over each node's incoming edges. Both follow by composing, segment by segment, what each region finds
  (the boundary reads) with what each region computes of what it finds (the regions' whole-array forms).
-/
import proofs.«106935_j60120952209605_1_alg».proof.Proof.KernelBoundary
import proofs.«106935_j60120952209605_1_alg».proof.Proof.EdgeBlocks
import proofs.«106935_j60120952209605_1_alg».proof.Proof.NodeBlocks

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Boundary Cert.ArraySpec

variable (m : (ℓ : Loc nD τ sig) → Buf (Elt Ideal) ℓ) (ρ : Dev nD → PrngReg)

/-- The edge region's output array after the run, of the launch arguments. -/
theorem edges_region (c : Dev nD) :
    (dat0 (V1 m ρ) c).arrAt 8 cfg0.N
      = edgeArray (Cert.ReferenceIdeal.Read.val_main_v10 (F := Ideal) (m ((c.tc : Thread nD τ).loc main_arg0)) (m ((c.tc : Thread nD τ).loc main_arg1)))
        (Cert.ReferenceIdeal.Read.val_main_v17 (F := Ideal) (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.KernelIdeal.EdgeValue.edge_final (V1 m ρ) c, edge_src m ρ c, edge_dst m ρ c, edge_arg2 m ρ c, edge_arg3 m ρ c,
    edge_arg4 m ρ c, edge_arg5 m ρ c, edge_arg6 m ρ c, edge_arg7 m ρ c]

/-- THE NEW EDGE ARRAY the kernel program returns. -/
theorem edges_value (c : Dev nD) :
    W4 m ρ c (Proc.devRef .tc main_v18)
      = edgeArray (Cert.ReferenceIdeal.Read.val_main_v10 (F := Ideal) (m ((c.tc : Thread nD τ).loc main_arg0)) (m ((c.tc : Thread nD τ).loc main_arg1)))
        (Cert.ReferenceIdeal.Read.val_main_v17 (F := Ideal) (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (edges_result m ρ c).trans (edges_region m ρ c)

/-- THE NEW NODE ARRAY the kernel program returns. -/
theorem nodes_value (c : Dev nD) :
    W4 m ρ c (Proc.devRef .tc main_v31)
      = nodeArray (m ((c.tc : Thread nD τ).loc main_arg0))
          (nodeMean (Cert.ReferenceIdeal.Read.val_main_v3 (F := Ideal) (m ((c.tc : Thread nD τ).loc main_arg1)))
            (edgeArray (Cert.ReferenceIdeal.Read.val_main_v10 (F := Ideal) (m ((c.tc : Thread nD τ).loc main_arg0)) (m ((c.tc : Thread nD τ).loc main_arg1)))
        (Cert.ReferenceIdeal.Read.val_main_v17 (F := Ideal) (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))))
          (m ((c.tc : Thread nD τ).loc main_arg8)) (m ((c.tc : Thread nD τ).loc main_arg9)) (m ((c.tc : Thread nD τ).loc main_arg10)) (m ((c.tc : Thread nD τ).loc main_arg11)) := by
  rw [nodes_result m ρ c, Cert.KernelIdeal.NodeValue.node_final (V3 m ρ) c, node_mean m ρ c, edges_region m ρ c,
    node_arg0 m ρ c, node_arg8 m ρ c, node_arg9 m ρ c, node_arg10 m ρ c, node_arg11 m ρ c]

end Cert.KernelIdeal.KernelValue

end
-- ==== Proof.RefEdges.lean ====
/-
  The reference's new edge array is the edge update of its gathered rows, row by row.

  The reference applies the same two-layer perceptron to whole arrays: `e + relu([xs, xd, e + xs · W_msg] · W₁ + b₁) · W₂ + b₂`
  with each product a `dot_general`, each bias broadcast over the rows. Read at entry `(r, q)`, every operation involves
  only row `r` of the edge-indexed operands, and the result is the row function of the specification, with the output
  bias added last.
-/
import proofs.«106935_j60120952209605_1_alg».proof.Proof.Gen.ReferenceIdeal.Read
import proofs.«106935_j60120952209605_1_alg».proof.Proof.ArraySpec

set_option maxRecDepth 16384

noncomputable section

namespace Cert.ReferenceIdeal.RefValue

open Idealize.ShloMosaic Idealize.ShloMosaic.ValueIdx Idealize.ShloMosaic.Pipeline
open Cert.ReferenceIdeal Cert.ReferenceIdeal.Gen Cert.ReferenceIdeal.Read Cert.RowAlg Cert.ArraySpec

variable (x0 : (⟨S50000x64, .f32⟩ : BufTy).Contents (Elt Ideal)) (x1 : (⟨S2x800000, .i32⟩ : BufTy).Contents (Elt Ideal))
  (x2 : (⟨S800000x64, .f32⟩ : BufTy).Contents (Elt Ideal)) (x3 : (⟨S64x64, .f32⟩ : BufTy).Contents (Elt Ideal))
  (x4 : (⟨S192x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-- The reference's rectified hidden layer at row `r`, feature `j`. -/
theorem edge_hidden_apply (r : Fin 800000) (j : Fin 128) :
    val_main_v25 (F := Ideal) x0 x1 x2 x3 x4 x5 (ix2 r j)
      = edgeHidden (fun l => val_main_v10 (F := Ideal) x0 x1 (ix2 r l)) (fun l => val_main_v17 (F := Ideal) x0 x1 (ix2 r l))
          (fun l => x2 (ix2 r l)) (fun a b => x3 (ix2 a b)) (fun a b => x4 (ix2 a b)) (fun a => x5 (ix1 a)) j := by
  rw [val_main_v25_apply, val_main_v24_apply, val_main_v21_apply, val_main_v23_apply, val_main_v22_apply,
    val_main_call0_v0_apply, val_main_call0_cst_apply]
  have hl : ∀ k : Fin 192, lidx_main_v21 (ix2 r j) k = ix2 r k := fun k => funext fun a => Fin.ext (by match a with | ⟨0, _⟩ => rfl | ⟨1, _⟩ => rfl)
  have hr : ∀ k : Fin 192, ridx_main_v21 (ix2 r j) k = ix2 k j := fun k => funext fun a => Fin.ext (by match a with | ⟨0, _⟩ => rfl | ⟨1, _⟩ => rfl)
  have hb : idx_main_v22 (idx_main_v23 (ix2 r j)) = ix1 j := funext fun a => Fin.ext (by match a with | ⟨0, _⟩ => rfl)
  simp only [hl, hr, hb]
  unfold edgeHidden
  show max ((∑ k : Fin 192, val_main_v20 (F := Ideal) x0 x1 x2 x3 (ix2 r k) * x4 (ix2 k j)) + x5 (ix1 j))
    (Ideal.ofBits .f32 0x00000000#32) = _
  refine congrArg (fun z => max (z + x5 (ix1 j)) zeroWord) (Finset.sum_congr rfl fun k _ => congrArg (· * x4 (ix2 k j)) ?_)
  -- the concatenated row at feature `k`
  unfold val_main_v20
  refine (concatenate3_row _ _ _ concatenates_S800000x64_S800000x64_S800000x64_S800000x192_d1 r k).trans ?_
  refine congrArg (fun f => cat3 _ _ f k) (funext fun l => ?_)
  -- the edge row plus the message
  rw [val_main_v19_apply, val_main_v18_apply]
  have hl' : ∀ a : Fin 64, lidx_main_v18 (ix2 r l) a = ix2 r a := fun a => funext fun d => Fin.ext (by match d with | ⟨0, _⟩ => rfl | ⟨1, _⟩ => rfl)
  have hr' : ∀ a : Fin 64, ridx_main_v18 (ix2 r l) a = ix2 a l := fun a => funext fun d => Fin.ext (by match d with | ⟨0, _⟩ => rfl | ⟨1, _⟩ => rfl)
  simp only [hl', hr']
  rfl

/-- The reference's new edge array is the specification's, of the gathered source and destination rows. -/
theorem edges_eq :
    val_main_v30 (F := Ideal) x0 x1 x2 x3 x4 x5 x6 x7
      = edgeArray (val_main_v10 (F := Ideal) x0 x1) (val_main_v17 (F := Ideal) x0 x1) x2 x3 x4 x5 x6 x7 := by
  funext i
  obtain ⟨r, q, rfl⟩ : ∃ (r : Fin 800000) (q : Fin 64), i = ix2 r q := ⟨i 0, i 1, eq_ix2 i⟩
  rw [val_main_v30_apply, val_main_v27_apply, val_main_v26_apply, val_main_v29_apply, val_main_v28_apply]
  have hl : ∀ k : Fin 128, lidx_main_v26 (ix2 r q) k = ix2 r k := fun k => funext fun a => Fin.ext (by match a with | ⟨0, _⟩ => rfl | ⟨1, _⟩ => rfl)
  have hr : ∀ k : Fin 128, ridx_main_v26 (ix2 r q) k = ix2 k q := fun k => funext fun a => Fin.ext (by match a with | ⟨0, _⟩ => rfl | ⟨1, _⟩ => rfl)
  have hb : idx_main_v28 (idx_main_v29 (ix2 r q)) = ix1 q := funext fun a => Fin.ext (by match a with | ⟨0, _⟩ => rfl)
  simp only [hl, hr, hb]
  unfold edgeArray edgeEntry edgeRow
  show (x2 (ix2 r q) + ∑ k : Fin 128, val_main_v25 (F := Ideal) x0 x1 x2 x3 x4 x5 (ix2 r k) * x6 (ix2 k q)) + x7 (ix1 q) = _
  exact congrArg (· + x7 (ix1 q)) (congrArg (x2 (ix2 r q) + ·)
    (Finset.sum_congr rfl fun j _ => congrArg (· * x6 (ix2 j q)) (edge_hidden_apply x0 x1 x2 x3 x4 x5 r j)))

end Cert.ReferenceIdeal.RefValue

end
-- ==== Proof.RefNodes.lean ====
/-
  The reference's new node array is the node update of the node features and the averaged messages, row by row.

  The reference applies `x + relu([x, m] · W₁ + b₁) · W₂ + b₂` to whole arrays, `m` its averaged messages. Read at entry
  `(r, q)`, every operation involves only row `r` of `x` and of `m`, and the result is the row function of the
  specification, with the output bias added last.
-/
import proofs.«106935_j60120952209605_1_alg».proof.Proof.Gen.ReferenceIdeal.Read
import proofs.«106935_j60120952209605_1_alg».proof.Proof.ArraySpec

set_option maxRecDepth 16384

noncomputable section

namespace Cert.ReferenceIdeal.RefValue

open Idealize.ShloMosaic Idealize.ShloMosaic.ValueIdx Idealize.ShloMosaic.Pipeline
open Cert.ReferenceIdeal Cert.ReferenceIdeal.Gen Cert.ReferenceIdeal.Read Cert.RowAlg Cert.ArraySpec

variable (x0 : (⟨S50000x64, .f32⟩ : BufTy).Contents (Elt Ideal)) (x1 : (⟨S2x800000, .i32⟩ : BufTy).Contents (Elt Ideal))
  (x2 : (⟨S800000x64, .f32⟩ : BufTy).Contents (Elt Ideal)) (x3 : (⟨S64x64, .f32⟩ : BufTy).Contents (Elt Ideal))
  (x4 : (⟨S192x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))
  (x8 : (⟨S128x128, .f32⟩ : BufTy).Contents (Elt Ideal)) (x9 : (⟨S128, .f32⟩ : BufTy).Contents (Elt Ideal))
  (x10 : (⟨S128x64, .f32⟩ : BufTy).Contents (Elt Ideal)) (x11 : (⟨S64, .f32⟩ : BufTy).Contents (Elt Ideal))

/-- The reference's rectified hidden layer of the node update at row `r`, feature `j`. -/
theorem node_hidden_apply (r : Fin 50000) (j : Fin 128) :
    val_main_v48 (F := Ideal) x0 x1 x2 x3 x4 x5 x6 x7 x8 x9 (ix2 r j)
      = nodeHidden (fun l => x0 (ix2 r l)) (fun l => val_main_v42 (F := Ideal) x0 x1 x2 x3 x4 x5 x6 x7 (ix2 r l))
          (fun a b => x8 (ix2 a b)) (fun a => x9 (ix1 a)) j := by
  rw [val_main_v48_apply, val_main_v47_apply, val_main_v44_apply, val_main_v46_apply, val_main_v45_apply,
    val_main_call1_v0_apply, val_main_call1_cst_apply]
  have hl : ∀ k : Fin 128, lidx_main_v44 (ix2 r j) k = ix2 r k := fun k => funext fun a => Fin.ext (by match a with | ⟨0, _⟩ => rfl | ⟨1, _⟩ => rfl)
  have hr : ∀ k : Fin 128, ridx_main_v44 (ix2 r j) k = ix2 k j := fun k => funext fun a => Fin.ext (by match a with | ⟨0, _⟩ => rfl | ⟨1, _⟩ => rfl)
  have hb : idx_main_v45 (idx_main_v46 (ix2 r j)) = ix1 j := funext fun a => Fin.ext (by match a with | ⟨0, _⟩ => rfl)
  simp only [hl, hr, hb]
  unfold nodeHidden
  show max ((∑ k : Fin 128, val_main_v43 (F := Ideal) x0 x1 x2 x3 x4 x5 x6 x7 (ix2 r k) * x8 (ix2 k j)) + x9 (ix1 j))
    (Ideal.ofBits .f32 0x00000000#32) = _
  refine congrArg (fun z => max (z + x9 (ix1 j)) zeroWord) (Finset.sum_congr rfl fun k _ => congrArg (· * x8 (ix2 k j)) ?_)
  -- the concatenated row at feature `k`
  unfold val_main_v43
  exact concatenate2_row _ _ concatenates_S50000x64_S50000x64_S50000x128_d1 r k

/-- The reference's new node array is the specification's, of the node features and the reference's averaged messages. -/
theorem nodes_eq :
    val_main_v53 (F := Ideal) x0 x1 x2 x3 x4 x5 x6 x7 x8 x9 x10 x11
      = nodeArray x0 (val_main_v42 (F := Ideal) x0 x1 x2 x3 x4 x5 x6 x7) x8 x9 x10 x11 := by
  funext i
  obtain ⟨r, q, rfl⟩ : ∃ (r : Fin 50000) (q : Fin 64), i = ix2 r q := ⟨i 0, i 1, eq_ix2 i⟩
  rw [val_main_v53_apply, val_main_v50_apply, val_main_v49_apply, val_main_v52_apply, val_main_v51_apply]
  have hl : ∀ k : Fin 128, lidx_main_v49 (ix2 r q) k = ix2 r k := fun k => funext fun a => Fin.ext (by match a with | ⟨0, _⟩ => rfl | ⟨1, _⟩ => rfl)
  have hr : ∀ k : Fin 128, ridx_main_v49 (ix2 r q) k = ix2 k q := fun k => funext fun a => Fin.ext (by match a with | ⟨0, _⟩ => rfl | ⟨1, _⟩ => rfl)
  have hb : idx_main_v51 (idx_main_v52 (ix2 r q)) = ix1 q := funext fun a => Fin.ext (by match a with | ⟨0, _⟩ => rfl)
  simp only [hl, hr, hb]
  unfold nodeArray nodeEntry nodeRow
  show (x0 (ix2 r q) + ∑ k : Fin 128, val_main_v48 (F := Ideal) x0 x1 x2 x3 x4 x5 x6 x7 x8 x9 (ix2 r k) * x10 (ix2 k q)) + x11 (ix1 q) = _
  exact congrArg (· + x11 (ix1 q)) (congrArg (x0 (ix2 r q) + ·)
    (Finset.sum_congr rfl fun j _ => congrArg (· * x10 (ix2 j q)) (node_hidden_apply x0 x1 x2 x3 x4 x5 x6 x7 x8 x9 r j)))

end Cert.ReferenceIdeal.RefValue

end
-- ==== Proof.lean ====
/-
  A graph network's edge and node update, computed by two tiled kernels, against the whole-array reference.

  Both programs gather the node features at every edge's source and destination, update every edge row by a two-layer
  perceptron of `[xs, xd, e + xs · W_msg]` with a residual, average the new edge rows over each node's incoming edges,
  and update every node row by a two-layer perceptron of `[x, mean]` with a residual. The kernel program runs the two
  perceptrons tile by tile (4000 edges, 5000 nodes at a time) and rounds the matrix products' operands to bf16; the
  reference runs them on whole arrays.

  At the ideal values the roundings are the identity, a tiled matrix product and a whole one are the same sums, and the
  programs differ in one thing only: the kernel adds the output bias to the second layer's product before the residual,
  `e + (h · W₂ + b₂)`, the reference after, `(e + h · W₂) + b₂`. Addition of extended reals is associative, so the two agree
  at every input, finite or not: the precondition is never opened. The gathers and the averaging are the same host
  operations in both programs and are carried as opaque functions.

  The modules: RowAlg (the perceptrons on one row; layout operations read at a row), ArraySpec (the two results as
  whole-array functions), EdgePayload / NodePayload (each kernel body at an entry), EdgeBlocks / NodeBlocks (from the
  blocks each grid point writes back to the whole output array), KernelRun / KernelBoundary / KernelValue (the kernel
  program's run, segment by segment), RefEdges / RefNodes (the reference's two results at an entry).
-/
import proofs.«106935_j60120952209605_1_alg».proof.Defs
import proofs.«106935_j60120952209605_1_alg».proof.Proof.Gen.Kernel
import proofs.«106935_j60120952209605_1_alg».proof.Proof.Gen.Kernel.Skeleton
import proofs.«106935_j60120952209605_1_alg».proof.Proof.Gen.Kernel.Launch
import proofs.«106935_j60120952209605_1_alg».proof.Proof.Gen.Kernel.Points
import proofs.«106935_j60120952209605_1_alg».proof.Proof.Gen.Kernel.Frame
import proofs.«106935_j60120952209605_1_alg».proof.Proof.Gen.KernelIdeal
import proofs.«106935_j60120952209605_1_alg».proof.Proof.Gen.KernelIdeal.Skeleton
import proofs.«106935_j60120952209605_1_alg».proof.Proof.Gen.KernelIdeal.Launch
import proofs.«106935_j60120952209605_1_alg».proof.Proof.Gen.KernelIdeal.Points
import proofs.«106935_j60120952209605_1_alg».proof.Proof.Gen.KernelIdeal.Frame
import proofs.«106935_j60120952209605_1_alg».proof.Proof.Gen.ReferenceIdeal
import proofs.«106935_j60120952209605_1_alg».proof.Proof.Gen.Pre_finite_inputs
import proofs.«106935_j60120952209605_1_alg».proof.Proof.Gen.ReferenceIdeal.Run
import proofs.«106935_j60120952209605_1_alg».proof.Proof.Gen.ReferenceIdeal.Read
import proofs.«106935_j60120952209605_1_alg».proof.Proof.KernelRun
import proofs.«106935_j60120952209605_1_alg».proof.Proof.KernelValue
import proofs.«106935_j60120952209605_1_alg».proof.Proof.RefEdges
import proofs.«106935_j60120952209605_1_alg».proof.Proof.RefNodes
import Idealize.ShloMosaic.Adequacy
import Idealize.ShloMosaic.Init

set_option maxRecDepth 16384

noncomputable section

namespace Cert.Proof

open Idealize.ShloMosaic Idealize.SL.Sem

/-- The word-level kernel program runs, nothing faulting, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the program's own text read at the ideal values. -/
theorem preserves : Cert.preserves_Kernel_KernelIdeal := trivial

/-- From memories agreeing on the arguments both programs end with the same two arrays: the new node array is the
    node update of the node features and the averaged new edge rows, the new edge array the edge update of the gathered
    rows and the edge features — the kernel program by its regions' whole-array forms, the reference by reading its
    operations at an entry. -/
theorem algebraic : Cert.algebraic_KernelIdeal_ReferenceIdeal := by
  intro m ρ m' ρ' _ hagree
  refine ⟨fun c => Cert.ArraySpec.nodeArray (m ((c.tc : Thread Cert.KernelIdeal.nD Cert.KernelIdeal.τ).loc Cert.KernelIdeal.main_arg0))
      (Cert.KernelIdeal.Boundary.nodeMean (Cert.ReferenceIdeal.Read.val_main_v3 (F := Ideal) (m ((c.tc : Thread Cert.KernelIdeal.nD Cert.KernelIdeal.τ).loc Cert.KernelIdeal.main_arg1)))
        (Cert.ArraySpec.edgeArray (Cert.ReferenceIdeal.Read.val_main_v10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ArraySpec.edgeArray (Cert.ReferenceIdeal.Read.val_main_v10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · -- the kernel program: the run's two result buffers, read through the segments
    refine (θ_run Cert.KernelIdeal.defs _ _).mono (fun r h c => ?_) (Cert.KernelIdeal.RunValue.run_results (F := Ideal) m ρ)
    obtain ⟨hn, he, hargs⟩ := h c
    exact ⟨hn.trans (Cert.KernelIdeal.KernelValue.nodes_value m ρ c), he.trans (Cert.KernelIdeal.KernelValue.edges_value m ρ c), hargs⟩
  · -- the reference: its composed terms are the stages, the stages the specification's functions
    refine (θ_run Cert.ReferenceIdeal.defs _ _).mono (fun r h c => ?_) (Cert.ReferenceIdeal.Value.run (F := Ideal) m' ρ')
    obtain ⟨hn, he, hargs⟩ := h c
    obtain ⟨g0, g1, g2, g3, g4, g5, g6, g7, g8, g9, g10, g11⟩ := hagree c
    refine ⟨hn.trans ?_, he.trans ?_, hargs⟩
    · rw [Cert.ReferenceIdeal.Read.val_main_v53_eq, Cert.ReferenceIdeal.RefValue.nodes_eq, Cert.KernelIdeal.Boundary.ref_nodeMean,
        Cert.ReferenceIdeal.RefValue.edges_eq, g0, g1, g2, g3, g4, g5, g6, g7, g8, g9, g10, g11]
    · rw [Cert.ReferenceIdeal.Read.val_main_v30_eq, Cert.ReferenceIdeal.RefValue.edges_eq, g0, g1, g2, g3, g4, g5, g6, g7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
